-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 24
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S_, .f32⟩
  | .hbm, ⟨30, _⟩ => ⟨S100000x128, .f32⟩
  | .hbm, ⟨31, _⟩ => ⟨S100000x128, .i1⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Layer.lean ====
/-
  The graph-convolution layer both programs compute, written once as functions on extended reals.

  * `linear x W b`  — the dense layer: row `r`, feature `j` is `∑ k, x[r,k] · W[j,k] + b[j]`.
  * `spmm … h row col w` — the sparse aggregation: every edge `e` reads row `col[e]` of `h` (a negative
    index counted from the end), scales it by `w[e]`, and the scaled rows are summed into row `row[e]` of a
    zero array. It is the same chain of host operations in both programs, so it is carried as one function of
    its operands and never opened.
  * `leaky v` — `v` for positive `v`, `slope · v` otherwise; the reference tests `0 ≤ v` instead of
    `0 < v`, and the two agree because `slope · 0 = 0` (`leaky_of_le`).
  * `residual a x` — `leaky (a + x)` element by element.
-/
import Idealize.ShloMosaic.PureOps
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

abbrev SNodes : Shape := ⟨2, ![100000, 128]⟩
abbrev SWeight : Shape := ⟨2, ![128, 128]⟩
abbrev SBias : Shape := ⟨1, ![128]⟩
abbrev SEdges : Shape := ⟨1, ![1600000]⟩
abbrev SEdges1 : Shape := ⟨2, ![1600000, 1]⟩
abbrev SMsgs : Shape := ⟨2, ![1600000, 128]⟩
abbrev SScalar : Shape := ⟨0, ![]⟩

/-- One entry of the dense layer: `∑ k, x[r,k] · W[j,k] + b[j]`. -/
def linearAt (x : SNodes.Idx → EReal) (W : SWeight.Idx → EReal) (b : SBias.Idx → EReal) (r : Fin 100000) (j : Fin 128) : EReal :=
  (∑ k : Fin 128, x (ix2 r k) * W (ix2 j k)) + b (ix1 j)

/-- The dense layer `x · Wᵀ + b`. -/
def linear (x : SNodes.Idx → EReal) (W : SWeight.Idx → EReal) (b : SBias.Idx → EReal) : SNodes.Idx → EReal :=
  fun i => linearAt x W b (i 0) (i 1)

theorem linear_ix2 (x : SNodes.Idx → EReal) (W : SWeight.Idx → EReal) (b : SBias.Idx → EReal) (r : Fin 100000) (j : Fin 128) :
    linear x W b (ix2 r j) = linearAt x W b r j := rfl

/-- The sparse aggregation, as the chain of host operations both programs run on `h`: the column index made
    non-negative, the rows of `h` gathered, scaled by the edge weights, and scatter-added by row index into zeros. -/
def spmm (gd : GatherDims SNodes SEdges1 SMsgs) (sd : ScatterDims SNodes SEdges1 SMsgs)
    (hb0 : SScalar.BroadcastsInDim SEdges (![] : Fin 0 → Fin SEdges.rank))
    (hb1 : SEdges.BroadcastsInDim SEdges1 (![0] : Fin 1 → Fin SEdges1.rank))
    (hb2 : SEdges1.BroadcastsInDim SMsgs (![0, 1] : Fin 2 → Fin SMsgs.rank))
    (hb3 : SScalar.BroadcastsInDim SNodes (![] : Fin 0 → Fin SNodes.rank))
    (h : FVec Ideal SNodes .f32) (row col : IVec SEdges 32) (w : FVec Ideal SEdges .f32) : FVec Ideal SNodes .f32 :=
  Host.scatterAdd sd (broadcastInDim SNodes ![] hb3 (constant (F := Ideal) SScalar .f32 0x00000000#32))
    (broadcastInDim SEdges1 ![0] hb1 row)
    (mulf
      (Host.gather gd h (broadcastInDim SEdges1 ![0] hb1
        (select (cmpi .slt col (broadcastInDim SEdges ![] hb0 (constantI SScalar 32 0#32)))
          (addi col (broadcastInDim SEdges ![] hb0 (constantI SScalar 32 100000#32))) col)))
      (broadcastInDim SMsgs ![0, 1] hb2 (broadcastInDim SEdges1 ![0] hb1 w)))

/-- The negative slope, the binary32 word both programs carry. -/
def slope : EReal := Ideal.ofBits .f32 0x3E4CCCCD#32

/-- The activation: the identity on positive values, multiplication by the slope elsewhere. -/
def leaky (v : EReal) : EReal := if 0 < v then v else slope * v

/-- Testing `0 ≤ v` instead of `0 < v` gives the same function: the two tests differ at `v = 0` only, where both
    branches are `0`. -/
theorem leaky_of_le (v : EReal) : (if 0 ≤ v then v else slope * v) = leaky v := by
  unfold leaky
  by_cases h : 0 < v
  · rw [if_pos h, if_pos h.le]
  · rw [if_neg h]
    by_cases h0 : 0 ≤ v
    · have hv : v = 0 := le_antisymm (not_lt.mp h) h0
      rw [if_pos h0, hv, mul_zero]
    · rw [if_neg h0]

/-- The layer's output: the activation of aggregate plus input, element by element. -/
def residual (a x : SNodes.Idx → EReal) : SNodes.Idx → EReal := fun i => leaky (a i + x i)

end Cert.Layer

end
-- ==== Proof.Dense.lean ====
/-
  The first kernel, read as a value: after its twenty grid points have run, the output array holds the dense
  layer `x · Wᵀ + b` of the arrays `x`, `W`, `b` as the kernel found them.

  Grid point `t` loads rows `5000·t … 5000·t + 4999` of `x` and the whole of `W` and `b`, multiplies the block
  by the transpose of `W` (a contraction over the 128 features, into a zero accumulator), adds `b` to every row, and
  writes the 5000 × 128 block back to the same rows of the output. Entry `(p, q)` of the block is
  `∑ k, x[5000·t + p, k] · W[q, k] + b[q]`: a change of float format is the identity on extended reals.
-/
import proofs.«140097_j20547123544256_1_alg».proof.Proof.Gen.KernelIdeal.Frame
import proofs.«140097_j20547123544256_1_alg».proof.Proof.Layer
import Idealize.ShloMosaic.Lib.Pipeline.Value
import Idealize.ShloMosaic.Lib.ValueIdx
import Idealize.ShloMosaic.PureOps.Ideal.Laws

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The matrix product's dimension numbers: rows of the block against columns of the transposed weight. -/
abbrev D : DotDims S5000x128 S128x128 S5000x128 := dot_S5000x128_S128x128_S5000x128_1_0_0_1_n_n

theorem lhs_row (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_contr (i : S5000x128.Idx) (q : D.contr.Idx) : (D.lhsIdx i q 1).val = (q ⟨0, by decide⟩).val :=
  D.lhsIdx_val_of_single rfl i q
theorem rhs_contr (i : S5000x128.Idx) (q : D.contr.Idx) : (D.rhsIdx i q 0).val = (q ⟨0, by decide⟩).val :=
  D.rhsIdx_val_of_single rfl i q
theorem rhs_col (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- Entry `(p, q)` of the block the body stores. -/
theorem stored_apply (x : Vec Ideal S5000x128 .f32) (W : Vec Ideal S128x128 .f32) (b : Vec Ideal S128 .f32) (p : Fin 5000) (q : Fin 128) :
    k0_pay1 x W b (ix2 p q) = (∑ k : Fin 128, x (ix2 p k) * W (ix2 q k)) + b (ix1 q) := by
  unfold k0_pay1
  rw [addf_apply]
  have hprod : matmul (F := Ideal) D none (truncf .bf16 x bitsLt_bf16_f32)
        (transpose S128x128 [1, 0] (truncf .bf16 W bitsLt_bf16_f32) transposes_S128x128_p1_0_S128x128)
        (constant (F := Ideal) S5000x128 .f32 0#32) (ix2 p q) = ∑ k : Fin 128, x (ix2 p k) * W (ix2 q k) := by
    simp only [matmul]
    rw [Ideal.matmul_constant_zero_apply, ← Equiv.sum_comp (contrEquiv1 D 128 rfl rfl).symm]
    refine Finset.sum_congr rfl fun k _ => ?_
    have hk := contrEquiv1_symm_val D 128 rfl rfl k
    have el : D.lhsIdx (ix2 p q) ((contrEquiv1 D 128 rfl rfl).symm k) = ix2 p k := funext fun a => Fin.ext (by
      match a with
      | ⟨0, _⟩ => exact lhs_row _ _
      | ⟨1, _⟩ => exact (lhs_contr _ _).trans hk)
    have er : D.rhsIdx (ix2 p q) ((contrEquiv1 D 128 rfl rfl).symm k) = ix2 k q := funext fun a => Fin.ext (by
      match a with
      | ⟨0, _⟩ => exact (rhs_contr _ _).trans hk
      | ⟨1, _⟩ => exact rhs_col _ _)
    rw [el, er]
    rw [transpose_apply (s := S128x128) (t := S128x128) [1, 0] _ _ (ix2 k q) (ix2 q k)
      (by intro a; match a with | ⟨0, _⟩ => rfl | ⟨1, _⟩ => rfl)]
    rfl
  have hbias : broadcastTo S5000x128 (shapeCast S1x128 b shapeCasts_S128_S1x128) broadcasts_S1x128_S5000x128 (ix2 p q)
      = b (ix1 q) := by
    rw [broadcastTo_apply (s := S1x128) (t := S5000x128) _ _ (ix2 p q) (ix2 (0 : Fin 1) q)
      (by intro a; match a with | ⟨0, _⟩ => rfl | ⟨1, _⟩ => rfl)]
    exact shapeCast_apply (s := S128) (t := S1x128) _ _ _ (ix1 q) (by
      rw [Shape.rowMajor_val_one, Shape.rowMajor_val_two]
      show q.val = 0 * 128 + q.val
      omega)
  rw [hprod, hbias]

theorem origin2 : (![0, 0] : Fin 2 → Nat) = fun _ => 0 := funext fun a => by fin_cases a <;> rfl
theorem origin1 : (![0] : Fin 1 → Nat) = fun _ => 0 := funext fun a => by fin_cases a <;> rfl

/-- Entry `(p, q)` of a stored block is entry `(r, q)` of the dense layer of the whole arrays, when the loaded blocks are
    rows `r - p …` of `x`, the whole weight and the whole bias. -/
theorem block_entry (X : S100000x128.Idx → EReal) (Wt : S128x128.Idx → EReal) (B : S128.Idx → EReal)
    (xb : Vec Ideal S5000x128 .f32) (wb : Vec Ideal S128x128 .f32) (bb : Vec Ideal S128 .f32)
    (r : Fin 100000) (p : Fin 5000) (q : Fin 128)
    (hx : ∀ k : Fin 128, xb (ix2 p k) = X (ix2 r k)) (hw : ∀ k : Fin 128, wb (ix2 q k) = Wt (ix2 q k))
    (hb : bb (ix1 q) = B (ix1 q)) :
    k0_pay1 xb wb bb (ix2 p q) = Cert.Layer.linear X Wt B (ix2 r q) := by
  rw [stored_apply, Cert.Layer.linear_ix2]
  unfold Cert.Layer.linearAt
  rw [hb]
  exact congrArg (· + B (ix1 q)) (Finset.sum_congr rfl fun k _ => by rw [hx k, hw k])

/-- Over the grid: the input block and the output block at point `t` have block index `(t, 0)`; the weight and the
    bias are one block each. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the dense layer of the three argument arrays. -/
theorem written (c : Dev nD) (t : Fin cfg0.N) :
    (dat0 V c).flushed 3 t
      = ((cfg0.win 3).blk t).view.read (Elt Ideal) (Cert.Layer.linear (V c main_arg0) (V c main_arg4) (V c main_arg5)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x128) origin2,
    View.ld_unit_zero (S := S128) origin1]
  obtain ⟨e0, e1, e2, e3, e4, e5, e6⟩ := block_index t
  have ht : t.val < 20 := (N_0 ▸ t.isLt : t.val < 20)
  funext j
  obtain ⟨p, q, rfl⟩ : ∃ (p : Fin 5000) (q : Fin 128), j = ix2 p q := ⟨j 0, j 1, eq_ix2 j⟩
  have hr : t.val * 5000 + p.val < 100000 := by have := p.isLt; omega
  have ex : ∀ k : Fin 128, ((cfg0.win 0).blk t).view.emb (ix2 p k) = ix2 (⟨t.val * 5000 + p.val, hr⟩ : Fin 100000) k := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have ew : ∀ k : Fin 128, ((cfg0.win 1).blk t).view.emb (ix2 q k) = ix2 q k := fun k => by
    funext a; apply Fin.ext
    match a with
    | ⟨0, _⟩ => show win0_1.index t (0 : Fin 2) * 128 + 1 * q.val = q.val; omega
    | ⟨1, _⟩ => show win0_1.index t (1 : Fin 2) * 128 + 1 * k.val = k.val; omega
  have eb : ((cfg0.win 2).blk t).view.emb (ix1 q) = ix1 q := by
    funext a; apply Fin.ext
    match a with
    | ⟨0, _⟩ => show win0_2.index t (0 : Fin 1) * 128 + 1 * q.val = q.val; omega
  have eo : ((cfg0.win 3).blk t).view.emb (ix2 p q) = ix2 (⟨t.val * 5000 + p.val, hr⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  refine (block_entry (V c main_arg0) (V c main_arg4) (V c main_arg5) (iblk0 V c 0 t) (iblk0 V c 1 t) (iblk0 V c 2 t)
    ⟨t.val * 5000 + p.val, hr⟩ p q (fun k => congrArg (V c main_arg0) (ex k)) (fun k => congrArg (V c main_arg4) (ew k))
    (congrArg (V c main_arg5) eb)).trans ?_
  exact (congrArg (Cert.Layer.linear (V c main_arg0) (V c main_arg4) (V c main_arg5)) eo).symm

/-- An index of the output array lies in point `t`'s block iff each coordinate lies in the block's range. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row `r` lies in the block of point `r / 5000`: the twenty blocks tile the array. -/
theorem tiled (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_3 _, ?_⟩
  rw [mem_block]
  obtain ⟨-, -, -, -, -, e5, e6⟩ := block_index ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e5]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e6]; omega

/-- THE OUTPUT ARRAY after the kernel: the dense layer of the three argument arrays as the kernel found them. -/
theorem array_eq (c : Dev nD) :
    (dat0 V c).arrAt 3 cfg0.N = Cert.Layer.linear (V c main_arg0) (V c main_arg4) (V c main_arg5) :=
  (dat0 V c).arrAt_eq_of_cover 3 _ (fun t _ => written V c t) tiled

end Cert.KernelIdeal.Dense

end
-- ==== Proof.Activation.lean ====
/-
  The second kernel, read as a value: after its twenty grid points have run, the output array holds
  `leaky (agg + x)` element by element, whatever the two input arrays `agg` and `x` were when the kernel
  was entered.

  Grid point `t` loads rows `5000·t … 5000·t + 4999` of both inputs, adds them, keeps the positive sums and
  scales the others by the slope, and writes the 5000 × 128 block back to the same rows of the output. The blocks
  of the twenty points tile the 100000 rows, so the output array is one function of the inputs.
-/
import proofs.«140097_j20547123544256_1_alg».proof.Proof.Gen.KernelIdeal.Frame
import proofs.«140097_j20547123544256_1_alg».proof.Proof.Layer
import Idealize.ShloMosaic.Lib.Pipeline.Value
import Idealize.ShloMosaic.Lib.ValueIdx
import Idealize.ShloMosaic.PureOps.Ideal.Laws

noncomputable section

namespace Cert.KernelIdeal.Activation

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The block the body stores is the activation of the sum of the two loaded blocks, element by element. -/
theorem stored_eq (a x : Vec Ideal S5000x128 .f32) : k1_pay1 a x = fun j => Cert.Layer.leaky (a j + x j) := by
  funext j
  unfold k1_pay1
  rw [shapeCast_self]
  show Scalar.select (Ideal.cmp .ogt (a j + x j) (Ideal.ofBits .f32 0#32)) (a j + x j)
    (Ideal.ofBits .f32 1045220557#32 * (a j + x j)) = _
  rw [Ideal.ofBits_zero_f32]
  unfold Cert.Layer.leaky Cert.Layer.slope Ideal.cmp Scalar.select
  by_cases h : 0 < a j + x j
  · simp [h]
  · simp [h]

/-- Over the grid: every window's block index at point `t` is `(t, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the activation of the sum of the two input arrays. -/
theorem written (c : Dev nD) (t : Fin cfg1.N) :
    (dat1 V c).flushed 2 t
      = ((cfg1.win 2).blk t).view.read (Elt Ideal) (Cert.Layer.residual (V c main_v13) (V c main_arg0)) := by
  show (cfg1.win 2).cut (grid1.coords t) ((dat1 V c).after 2 t) = _
  rw [after1_2]
  unfold out1_2
  rw [View.canon_unit_zero origin2]
  simp only [View.ld_unit_zero (S := S5000x128) origin2]
  rw [stored_eq]
  obtain ⟨e0, e1, e2, e3, e4, e5⟩ := block_index t
  funext j
  show Cert.Layer.leaky (@HAdd.hAdd EReal EReal EReal instHAdd (V c main_v13 (((cfg1.win 0).blk t).view.emb j))
      (V c main_arg0 (((cfg1.win 1).blk t).view.emb j)))
    = Cert.Layer.leaky (@HAdd.hAdd EReal EReal EReal instHAdd (V c main_v13 (((cfg1.win 2).blk t).view.emb j))
      (V c main_arg0 (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index of the output array lies in point `t`'s block iff each coordinate lies in the block's range. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v14).slice (win1_2.rect t)).set ↔ _
  rw [View.set_slice_whole, Rect.mem_set_unit]
  exact Iff.rfl

/-- Row `r` lies in the block of point `r / 5000`: the twenty blocks tile the array. -/
theorem tiled (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 20 := N_1
  refine ⟨⟨(i 0).val / 5000, by rw [hN]; omega⟩, flush1_2 _, ?_⟩
  rw [mem_block]
  obtain ⟨-, -, -, -, e4, e5⟩ := block_index ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- THE OUTPUT ARRAY after the kernel: the activation of the sum of its two input arrays as the kernel found them. -/
theorem array_eq (c : Dev nD) :
    (dat1 V c).arrAt 2 cfg1.N = Cert.Layer.residual (V c main_v13) (V c main_arg0) :=
  (dat1 V c).arrAt_eq_of_cover 2 _ (fun t _ => written V c t) tiled

end Cert.KernelIdeal.Activation

end
-- ==== Proof.Aggregate.lean ====
/-
  The sixteen host operations between the two kernels, read as a value: whatever the buffers hold when the stretch
  starts, the aggregate buffer ends at the sparse aggregation `spmm` of the dense layer's buffer, the two index
  arrays and the edge weights as they were. The operations are listed once in `Cert.Layer.spmm`; nothing inside the
  gather or the scatter-add is opened.
-/
import proofs.«140097_j20547123544256_1_alg».proof.Proof.Gen.KernelIdeal.Frame
import proofs.«140097_j20547123544256_1_alg».proof.Proof.Layer
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
open Idealize.ShloMosaic.StableHlo

/-- The aggregate buffer after the stretch, from any contents `Wv`. -/
theorem aggregate_read (Wv : Valuation τ sig (Elt Ideal)) :
    after (hostOps1 (F := Ideal)) Wv (Proc.devRef .tc main_v13)
      = Cert.Layer.spmm gather_S100000x128_S1600000x1_S1600000x128_1_0_n_n_0_1_1128
          scatter_S100000x128_S1600000x1_S1600000x128_1_0_0_1
          Gen.bcast_S_S1600000 Gen.bcast_S1600000_S1600000x1_0 Gen.bcast_S1600000x1_S1600000x128_0_1 Gen.bcast_S_S100000x128
          (Wv (Proc.devRef .tc main_v0)) (Wv (Proc.devRef .tc main_arg1)) (Wv (Proc.devRef .tc main_arg2))
          (Wv (Proc.devRef .tc main_arg3)) := by
  after_results_simp
  rfl

end Cert.KernelIdeal.Aggregate

end
-- ==== Proof.KernelValue.lean ====
/-
  The kernel program's result as ONE function of its arguments.

  The program is: the dense-layer kernel, sixteen host operations (the sparse aggregation of the dense layer's rows), the
  activation kernel. Reading the buffer contents at the three boundaries in turn: after the first kernel its output
  buffer holds `linear x W b` and the index and weight arrays are untouched; after the host stretch the aggregate
  buffer holds `spmm (linear x W b) row col w` and `x` is untouched; after the second kernel the result buffer holds
  `residual (spmm …) x`.
-/
import proofs.«140097_j20547123544256_1_alg».proof.Proof.FrameResult
import proofs.«140097_j20547123544256_1_alg».proof.Proof.Dense
import proofs.«140097_j20547123544256_1_alg».proof.Proof.Activation
import proofs.«140097_j20547123544256_1_alg».proof.Proof.Aggregate

noncomputable section

namespace Cert.KernelIdeal.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The layer's value of the launch memory on core `c`. -/
def layerOf (c : Dev nD) : Cert.Layer.SNodes.Idx → EReal :=
  Cert.Layer.residual
    (Cert.Layer.spmm gather_S100000x128_S1600000x1_S1600000x128_1_0_n_n_0_1_1128
      scatter_S100000x128_S1600000x1_S1600000x128_1_0_0_1
      Gen.bcast_S_S1600000 Gen.bcast_S1600000_S1600000x1_0 Gen.bcast_S1600000x1_S1600000x128_0_1 Gen.bcast_S_S100000x128
      (Cert.Layer.linear (m ((c.tc : Thread nD τ).loc main_arg0)) (m ((c.tc : Thread nD τ).loc main_arg4))
        (m ((c.tc : Thread nD τ).loc main_arg5)))
      (m ((c.tc : Thread nD τ).loc main_arg1)) (m ((c.tc : Thread nD τ).loc main_arg2)) (m ((c.tc : Thread nD τ).loc main_arg3)))
    (m ((c.tc : Thread nD τ).loc main_arg0))

/-- After the first kernel its output buffer holds the dense layer of the launched arrays. -/
theorem dense_buffer (c : Dev nD) :
    W1 m ρ c (Proc.devRef .tc main_v0)
      = Cert.Layer.linear (m ((c.tc : Thread nD τ).loc main_arg0)) (m ((c.tc : Thread nD τ).loc main_arg4))
          (m ((c.tc : Thread nD τ).loc main_arg5)) :=
  (W1_arr m ρ c 3).trans (Dense.array_eq (V0 m ρ) c)

/-- The second kernel finds the input array `x` as launched. -/
theorem input_kept (c : Dev nD) : V2 m ρ c main_arg0 = m ((c.tc : Thread nD τ).loc main_arg0) :=
  ((W3_arr m ρ c 1).trans (((dat1 (V2 m ρ) c).arrAt_in 1 rfl _).trans (A_eq1 (V2 m ρ) c 1))).symm.trans (W3_main_arg0 m ρ c)

/-- The second kernel finds the aggregate buffer at the sparse aggregation of the dense layer. -/
theorem aggregate_buffer (c : Dev nD) :
    V2 m ρ c main_v13
      = Cert.Layer.spmm gather_S100000x128_S1600000x1_S1600000x128_1_0_n_n_0_1_1128
          scatter_S100000x128_S1600000x1_S1600000x128_1_0_0_1
          Gen.bcast_S_S1600000 Gen.bcast_S1600000_S1600000x1_0 Gen.bcast_S1600000x1_S1600000x128_0_1 Gen.bcast_S_S100000x128
          (Cert.Layer.linear (m ((c.tc : Thread nD τ).loc main_arg0)) (m ((c.tc : Thread nD τ).loc main_arg4))
            (m ((c.tc : Thread nD τ).loc main_arg5)))
          (m ((c.tc : Thread nD τ).loc main_arg1)) (m ((c.tc : Thread nD τ).loc main_arg2))
          (m ((c.tc : Thread nD τ).loc main_arg3)) := by
  show after (hostOps1 (F := Ideal)) (W1 m ρ c) (Proc.devRef .tc main_v13) = _
  rw [Aggregate.aggregate_read, dense_buffer, W1_of_ne m ρ c main_arg1 (by decide), W1_of_ne m ρ c main_arg2 (by decide),
    W1_of_ne m ρ c main_arg3 (by decide)]

/-- The result buffer at the end of the program. -/
theorem result_eq (c : Dev nD) : W3 m ρ c (Proc.devRef .tc main_v14) = layerOf m c :=
  (W3_arr m ρ c 2).trans ((Activation.array_eq (V2 m ρ) c).trans (by rw [aggregate_buffer, input_kept]; rfl))

/-- THE RUN: every weakly fair execution of the kernel program terminates, nothing faulting, with the result buffer at the
    layer's value of the launched arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v14) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (GenP.frame_result m ρ)

end Cert.KernelIdeal.KernelValue

end
-- ==== Proof.LibAfterAppend.lean ====
/-
  Buffer contents after two lists of host operations run one after the other.
-/
import Idealize.ShloMosaic.Lib.StableHlo.Run

namespace Idealize.ShloMosaic.StableHlo

variable {τ : Topo} {sig : RefSig} {Val : EltTy → Type}

/-- The contents after a concatenation of two operation lists are the contents after the second list, started from the
    contents after the first: the fold over the operations splits at the seam. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RefOps.lean ====
/-
  The reference program as a list of host operations, and its run.

  The reference's entry function is a straight line of thirty host operations: five that compute the dense layer
  `x · Wᵀ + b`, sixteen that gather the rows named by the column indices, scale them by the edge weights and
  scatter-add them by row index into a zero array, and nine that add the input back and apply the activation (the
  last seven of them the bodies of the two helper functions the activation is outlined into, written out at the call
  over the buffers the call names). The three stretches are listed separately so that the contents of a buffer after
  each can be read on its own; the program is their concatenation. The run: every weakly fair execution terminates, and
  each buffer ends at the fold of the operations' results over the launch contents.
-/
import proofs.«140097_j20547123544256_1_alg».proof.Proof.Gen.ReferenceIdeal
import Idealize.ShloMosaic.Lib.StableHlo.Run
import proofs.«140097_j20547123544256_1_alg».proof.Proof.LibAfterAppend

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The dense layer: the weight transposed, the contraction of the input with it, the bias broadcast to a row and then
    to every row, and the sum. -/
abbrev opsLinear : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S100000x128 ![0, 1] bcast_S1x128_S100000x128_0_1 : (⟨S1x128, .f32⟩ : BufTy).Contents (Elt F) → (⟨S100000x128, .f32⟩ : BufTy).Contents (Elt F)),
    binary main_v1 main_v3 main_v4 (addf : (⟨S100000x128, .f32⟩ : BufTy).Contents (Elt F) → (⟨S100000x128, .f32⟩ : BufTy).Contents (Elt F) → (⟨S100000x128, .f32⟩ : BufTy).Contents (Elt F)) ]

/-- The sparse aggregation: the column index made non-negative (a negative one counted from the end), the rows of the
    dense layer's output gathered at it, scaled by the edge weights broadcast along the features, and scatter-added by row
    index into a zero array. -/
abbrev opsSpmm : List (HloOp τ sig (Elt F)) :=
  [ nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S100000x128 ![] bcast_S_S100000x128 : (⟨S_, .f32⟩ : BufTy).Contents (Elt F) → (⟨S100000x128, .f32⟩ : BufTy).Contents (Elt F)),
    unary main_arg1 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The residual and the activation: the aggregate plus the input, the slope, and then the activation's two helper
    functions written out over the buffers their calls name — a zero broadcast to every entry, the test `0 ≤ v`, the slope
    (converted to its own type) broadcast to every entry, the product `slope · v`, and the choice between `v` and
    that product by the test. -/
abbrev opsTail : List (HloOp τ sig (Elt F)) :=
  [ binary main_v17 main_arg0 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 (cmpf (F := F) .oge),
    TRef.unary (.of main_cst_1 : TRef sig ⟨S_, .f32⟩) main_call0.v2 id,
    TRef.unary main_call0.v2 main_call0.v3 (broadcastInDim S100000x128 ![] bcast_S_S100000x128),
    TRef.binary main_call0.v3 (.of main_v18 : TRef sig ⟨S100000x128, .f32⟩) main_call0.v4 mulf,
    TRef.ternary main_call0.v1 (.of main_v18 : TRef sig ⟨S100000x128, .f32⟩) main_call0.v4 main_call0.call0.v0 select ]

/-- The reference's thirty operations, in order. -/
abbrev ops : List (HloOp τ sig (Elt F)) := opsLinear ++ (opsSpmm ++ opsTail)

-- thirty binds re-associated, the two helper functions' bodies unfolded at their calls
set_option maxRecDepth 2048 in
/-- The entry function is that straight line: the helper functions' definitions unfolded at their calls and the calls'
    buffer records at their fields, both sides are one chain of host steps once sequencing is re-associated. -/
theorem main_eq (c : Dev nD) : main (F := F) c = seq ops := by
  simp only [main, fn_leaky_relu.body, fn_where.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsLinear_sub : (opsLinear : List (HloOp τ sig (Elt F))).Forall fun op => op.bufs ⊆ tcRefs τ sig :=
  ⟨unary_bufs_sub .., binary_bufs_sub .., unary_bufs_sub .., unary_bufs_sub .., binary_bufs_sub ..⟩

theorem opsSpmm_sub : (opsSpmm : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub ..⟩

theorem opsTail_sub : (opsTail : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub ..⟩

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append opsLinear_sub (forall_append opsSpmm_sub opsTail_sub)

theorem opsLinear_fresh : ∀ op ∈ (opsLinear : List (HloOp τ sig (Elt F))), op.fresh = ∅ := by
  intro _ h; (repeat (cases h with | head => rfl | tail _ h => ?_)); exact nomatch h

theorem opsSpmm_fresh : ∀ op ∈ (opsSpmm : List (HloOp τ sig (Elt F))), op.fresh = ∅ := by
  intro _ h; (repeat (cases h with | head => rfl | tail _ h => ?_)); exact nomatch h

theorem opsTail_fresh : ∀ op ∈ (opsTail : List (HloOp τ sig (Elt F))), op.fresh = ∅ := by
  intro _ h; (repeat (cases h with | head => rfl | tail _ h => ?_)); exact nomatch h

/-- Every operation determines its results: none allocates a buffer of contents not chosen. -/
theorem ops_fresh : ∀ op ∈ (ops : List (HloOp τ sig (Elt F))), op.fresh = ∅ := fun op h =>
  (List.mem_append.mp h).elim (opsLinear_fresh op) fun h' =>
    (List.mem_append.mp h').elim (opsSpmm_fresh op) (opsTail_fresh op)

/-- At the compiled mesh, for any float values, from any memory with zero counters: every weakly fair execution of the
    reference terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefLinear.lean ====
/-
  The reference's dense layer, read as a function of its arguments.

  The first five operations transpose the weight, contract the input's columns with the transposed weight's rows, broadcast
  the bias to every row and add. Read at row `r` and feature `j`: the contraction's sum runs over the one contracted
  axis, the left operand is read at `(r, k)`, the transposed weight at `(k, j)` — the weight at `(j, k)` — and the bias
  at `j`: `∑ k, x[r,k] · W[j,k] + b[j]`.
-/
import proofs.«140097_j20547123544256_1_alg».proof.Proof.RefOps
import proofs.«140097_j20547123544256_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.TcCoe Idealize.SL.Sem Idealize.ShloMosaic.StableHlo
open Idealize.ShloMosaic.ValueIdx

/-- Off the contracted axis the left operand's index reads the result's row. -/
theorem lhsIdx_row (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬((0 : Fin S100000x128.rank) ∈ dot_S100000x128_S128x128_S100000x128_1_0_0_1_n_n.lhsBatch) by decide),
    dif_pos (show (0 : Fin S100000x128.rank) ∈ dot_S100000x128_S128x128_S100000x128_1_0_0_1_n_n.lhsNonContracting by decide)]
  rfl

/-- Off the contracted axis the right operand's index reads the result's column. -/
theorem rhsIdx_col (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬((1 : Fin S128x128.rank) ∈ dot_S100000x128_S128x128_S100000x128_1_0_0_1_n_n.rhsBatch) by decide),
    dif_pos (show (1 : Fin S128x128.rank) ∈ dot_S100000x128_S128x128_S100000x128_1_0_0_1_n_n.rhsNonContracting by decide)]
  rfl

/-- The left operand's index at a result index and a contraction position: row from the result, column the position. -/
theorem lhsIdx_eq (r : Fin 100000) (j k : Fin 128) :
    dot_S100000x128_S128x128_S100000x128_1_0_0_1_n_n.lhsIdx (ix2 r j) ((contrEquiv1 dot_S100000x128_S128x128_S100000x128_1_0_0_1_n_n 128 rfl rfl).symm k) = ix2 r k := by
  have hk := contrEquiv1_symm_val dot_S100000x128_S128x128_S100000x128_1_0_0_1_n_n 128 rfl rfl k
  refine funext fun a => Fin.ext ?_
  match a with
  | ⟨0, _⟩ => exact lhsIdx_row (ix2 r j) _
  | ⟨1, _⟩ => exact (dot_S100000x128_S128x128_S100000x128_1_0_0_1_n_n.lhsIdx_val_of_single rfl (ix2 r j) _).trans hk

/-- The right operand's index: row the contraction position, column from the result. -/
theorem rhsIdx_eq (r : Fin 100000) (j k : Fin 128) :
    dot_S100000x128_S128x128_S100000x128_1_0_0_1_n_n.rhsIdx (ix2 r j) ((contrEquiv1 dot_S100000x128_S128x128_S100000x128_1_0_0_1_n_n 128 rfl rfl).symm k) = ix2 k j := by
  have hk := contrEquiv1_symm_val dot_S100000x128_S128x128_S100000x128_1_0_0_1_n_n 128 rfl rfl k
  refine funext fun a => Fin.ext ?_
  match a with
  | ⟨0, _⟩ => exact (dot_S100000x128_S128x128_S100000x128_1_0_0_1_n_n.rhsIdx_val_of_single rfl (ix2 r j) _).trans hk
  | ⟨1, _⟩ => exact rhsIdx_col (ix2 r j) _

/-- The contraction of the input with the transposed weight at row `r`, feature `j`: `∑ k, x[r,k] · W[j,k]`. -/
theorem dot_apply (x : FVec Ideal S100000x128 .f32) (W : FVec Ideal S128x128 .f32) (r : Fin 100000) (j : Fin 128) :
    Host.dotGeneral dot_S100000x128_S128x128_S100000x128_1_0_0_1_n_n none x (transpose S128x128 [1, 0] W transposes_S128x128_S128x128_1_0) (ix2 r j)
      = ∑ k : Fin 128, x (ix2 r k) * W (ix2 j k) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  rw [lhsIdx_eq, rhsIdx_eq]
  congr 1
  exact transpose_apply [1, 0] W transposes_S128x128_S128x128_1_0 (ix2 k j) (ix2 j k) fun b => by
    match b with
    | ⟨0, _⟩ => rfl
    | ⟨1, _⟩ => rfl

/-- The bias broadcast to a row and then to every row, read at row `r`, feature `j`: `b[j]`. -/
theorem bias_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = b (ix1 j) := by
  rw [broadcastInDim_apply ![0, 1] bcast_S1x128_S100000x128_0_1 _ (ix2 r j) (ix2 (0 : Fin 1) j) fun a => by
        match a with
        | ⟨0, _⟩ => rfl
        | ⟨1, _⟩ => rfl,
    broadcastInDim_apply ![1] bcast_S128_S1x128_1 b (ix2 (0 : Fin 1) j) (ix1 j) fun a => by
        match a with
        | ⟨0, _⟩ => rfl]

/-- After the first five operations the dense layer's buffer holds `x · Wᵀ + b` of the arguments' contents. -/
theorem linear_eq (V : Valuation τ sig (Elt Ideal)) :
    after (opsLinear (F := Ideal)) V (main_v4 : DevRef τ sig)
      = Cert.Layer.linear (V (main_arg0 : DevRef τ sig)) (V (main_arg4 : DevRef τ sig)) (V (main_arg5 : DevRef τ sig)) := by
  after_results
  funext i
  obtain ⟨r, j, rfl⟩ : ∃ (r : Fin 100000) (j : Fin 128), i = ValueIdx.ix2 r j := ⟨i 0, i 1, ValueIdx.eq_ix2 i⟩
  rw [Cert.Layer.linear_ix2, addf_apply, dot_apply, bias_apply]
  rfl

variable {F : FTy → Type} [FloatOps F]

/-! The dense layer writes none of the arguments' buffers. -/
theorem linear_arg0 (V : Valuation τ sig (Elt F)) :
    after (opsLinear (F := F)) V (main_arg0 : DevRef τ sig) = V (main_arg0 : DevRef τ sig) := by after_results
theorem linear_arg1 (V : Valuation τ sig (Elt F)) :
    after (opsLinear (F := F)) V (main_arg1 : DevRef τ sig) = V (main_arg1 : DevRef τ sig) := by after_results
theorem linear_arg2 (V : Valuation τ sig (Elt F)) :
    after (opsLinear (F := F)) V (main_arg2 : DevRef τ sig) = V (main_arg2 : DevRef τ sig) := by after_results
theorem linear_arg3 (V : Valuation τ sig (Elt F)) :
    after (opsLinear (F := F)) V (main_arg3 : DevRef τ sig) = V (main_arg3 : DevRef τ sig) := by after_results
theorem linear_arg4 (V : Valuation τ sig (Elt F)) :
    after (opsLinear (F := F)) V (main_arg4 : DevRef τ sig) = V (main_arg4 : DevRef τ sig) := by after_results
theorem linear_arg5 (V : Valuation τ sig (Elt F)) :
    after (opsLinear (F := F)) V (main_arg5 : DevRef τ sig) = V (main_arg5 : DevRef τ sig) := by after_results

end Cert.ReferenceIdeal.RefValue

end
-- ==== Proof.RefSpmm.lean ====
/-
  The reference's sparse aggregation, read as a function of its operands.

  The sixteen operations after the dense layer make the column index non-negative, gather the rows of the dense layer's
  output it names, scale them by the edge weights and scatter-add them by row index into a zero array. The chain is the
  one both programs run, so its result is stated as the one function `Cert.Layer.spmm` of the dense layer's output, the
  two index arrays and the edge weights, the gather and the scatter-add never opened.
-/
import proofs.«140097_j20547123544256_1_alg».proof.Proof.RefOps
import proofs.«140097_j20547123544256_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.TcCoe Idealize.SL.Sem Idealize.ShloMosaic.StableHlo
open Idealize.ShloMosaic.ValueIdx

variable {F : FTy → Type} [FloatOps F]

-- the gather and the scatter-add are carried as functions of their operands and never opened
attribute [local irreducible] Host.gather Host.scatterAdd in
/-- After the sixteen operations of the sparse aggregation its result buffer holds the aggregation, as one function of the
    dense layer's output, the two index arrays and the edge weights. -/
theorem spmm_eq (V : Valuation τ sig (Elt Ideal)) :
    after (opsSpmm (F := Ideal)) V (main_v17 : DevRef τ sig)
      = Cert.Layer.spmm gather_S100000x128_S1600000x1_S1600000x128_1_0_n_n_0_1_1128 scatter_S100000x128_S1600000x1_S1600000x128_1_0_0_1
          Facts₀.bcast_S_S1600000 Facts₀.bcast_S1600000_S1600000x1_0 Facts₀.bcast_S1600000x1_S1600000x128_0_1 Facts₀.bcast_S_S100000x128
          (V (main_v4 : DevRef τ sig)) (V (main_arg1 : DevRef τ sig)) (V (main_arg2 : DevRef τ sig)) (V (main_arg3 : DevRef τ sig)) := by
  after_results_simp
  rfl

/-! The sparse aggregation writes none of the arguments' buffers. -/
theorem spmm_arg0 (V : Valuation τ sig (Elt F)) :
    after (opsSpmm (F := F)) V (main_arg0 : DevRef τ sig) = V (main_arg0 : DevRef τ sig) := by after_results_simp
theorem spmm_arg1 (V : Valuation τ sig (Elt F)) :
    after (opsSpmm (F := F)) V (main_arg1 : DevRef τ sig) = V (main_arg1 : DevRef τ sig) := by after_results_simp
theorem spmm_arg2 (V : Valuation τ sig (Elt F)) :
    after (opsSpmm (F := F)) V (main_arg2 : DevRef τ sig) = V (main_arg2 : DevRef τ sig) := by after_results_simp
theorem spmm_arg3 (V : Valuation τ sig (Elt F)) :
    after (opsSpmm (F := F)) V (main_arg3 : DevRef τ sig) = V (main_arg3 : DevRef τ sig) := by after_results_simp
theorem spmm_arg4 (V : Valuation τ sig (Elt F)) :
    after (opsSpmm (F := F)) V (main_arg4 : DevRef τ sig) = V (main_arg4 : DevRef τ sig) := by after_results_simp
theorem spmm_arg5 (V : Valuation τ sig (Elt F)) :
    after (opsSpmm (F := F)) V (main_arg5 : DevRef τ sig) = V (main_arg5 : DevRef τ sig) := by after_results_simp

end Cert.ReferenceIdeal.RefValue

end
-- ==== Proof.RefTail.lean ====
/-
  The reference's residual and activation, read as a function of their operands.

  The last nine operations add the input to the aggregate and apply the activation through its two helper functions: a
  zero and the slope broadcast to every entry, the test `0 ≤ v`, the product `slope · v`, and the selection between `v`
  and the product by the test. Entry by entry that is `if 0 ≤ v then v else slope · v`, which is the activation
  `if 0 < v then v else slope · v` because the two agree at `v = 0`.
-/
import proofs.«140097_j20547123544256_1_alg».proof.Proof.RefOps
import proofs.«140097_j20547123544256_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.TcCoe Idealize.SL.Sem Idealize.ShloMosaic.StableHlo
open Idealize.ShloMosaic.ValueIdx

/-- The comparison `0 ≤ v` of extended reals, as the bit the selection reads. -/
theorem cmp_oge_of_le {v : EReal} (h : 0 ≤ v) : Ideal.cmp .oge v 0 = 1#1 := by
  show BitVec.ofBool (decide (0 ≤ v)) = 1#1
  rw [decide_eq_true h]; rfl

theorem cmp_oge_of_not_le {v : EReal} (h : ¬0 ≤ v) : Ideal.cmp .oge v 0 = 0#1 := by
  show BitVec.ofBool (decide (0 ≤ v)) = 0#1
  rw [decide_eq_false h]; rfl

/-- The zero word broadcast to every entry reads `0` everywhere. -/
theorem zero_apply (i : S100000x128.Idx) :
    broadcastInDim S100000x128 ![] bcast_S_S100000x128 (constant (F := Ideal) S_ .f32 0x00000000#32) i = 0 := by
  rw [broadcastInDim_apply ![] bcast_S_S100000x128 _ i ix0 (fun a => a.elim0), constant_apply, Ideal.ofBits_zero_f32]

/-- The slope's word broadcast to every entry reads the slope everywhere. -/
theorem slope_apply (i : S100000x128.Idx) :
    broadcastInDim S100000x128 ![] bcast_S_S100000x128 (constant (F := Ideal) S_ .f32 0x3E4CCCCD#32) i = Cert.Layer.slope := by
  rw [broadcastInDim_apply ![] bcast_S_S100000x128 _ i ix0 (fun a => a.elim0), constant_apply]
  rfl

/-- The selection between `v` and `slope · v` by the test `0 ≤ v` is the activation of `v`: the two tests `0 ≤ v` and
    `0 < v` differ at `v = 0` only, where both branches are `0`. -/
theorem leaky_apply (v : FVec Ideal S100000x128 .f32) (i : S100000x128.Idx) :
    select (cmpf (F := Ideal) .oge v (broadcastInDim S100000x128 ![] bcast_S_S100000x128 (constant (F := Ideal) S_ .f32 0x00000000#32))) v
        (mulf (broadcastInDim S100000x128 ![] bcast_S_S100000x128 (constant (F := Ideal) S_ .f32 0x3E4CCCCD#32)) v) i
      = Cert.Layer.leaky (v i) := by
  rw [select_apply, cmpf_apply, mulf_apply, zero_apply, slope_apply, Ideal.cmpf_def, ← Cert.Layer.leaky_of_le]
  by_cases h : 0 ≤ v i
  · rw [cmp_oge_of_le h, select_one, if_pos h]
  · rw [cmp_oge_of_not_le h, select_zero, if_neg h]

/-- After the last nine operations the result buffer holds the activation of aggregate plus input, entry by entry. -/
theorem tail_eq (V : Valuation τ sig (Elt Ideal)) :
    after (opsTail (F := Ideal)) V (main_v19 : DevRef τ sig)
      = Cert.Layer.residual (V (main_v17 : DevRef τ sig)) (V (main_arg0 : DevRef τ sig)) := by
  after_results_simp
  simp only [TRef.toBuf, TRef.ofBuf, cast_eq, id_eq]
  funext i
  rw [leaky_apply, addf_apply]
  rfl

variable {F : FTy → Type} [FloatOps F]

/-! The residual and the activation write none of the arguments' buffers. -/
theorem tail_arg0 (V : Valuation τ sig (Elt F)) :
    after (opsTail (F := F)) V (main_arg0 : DevRef τ sig) = V (main_arg0 : DevRef τ sig) := by after_results_simp
theorem tail_arg1 (V : Valuation τ sig (Elt F)) :
    after (opsTail (F := F)) V (main_arg1 : DevRef τ sig) = V (main_arg1 : DevRef τ sig) := by after_results_simp
theorem tail_arg2 (V : Valuation τ sig (Elt F)) :
    after (opsTail (F := F)) V (main_arg2 : DevRef τ sig) = V (main_arg2 : DevRef τ sig) := by after_results_simp
theorem tail_arg3 (V : Valuation τ sig (Elt F)) :
    after (opsTail (F := F)) V (main_arg3 : DevRef τ sig) = V (main_arg3 : DevRef τ sig) := by after_results_simp
theorem tail_arg4 (V : Valuation τ sig (Elt F)) :
    after (opsTail (F := F)) V (main_arg4 : DevRef τ sig) = V (main_arg4 : DevRef τ sig) := by after_results_simp
theorem tail_arg5 (V : Valuation τ sig (Elt F)) :
    after (opsTail (F := F)) V (main_arg5 : DevRef τ sig) = V (main_arg5 : DevRef τ sig) := by after_results_simp

end Cert.ReferenceIdeal.RefValue

end
-- ==== Proof.RefValue.lean ====
/-
  The reference's result as one function of its arguments.

  The three stretches of the reference's operations run one after the other, so the contents after the whole line are
  the contents after the last stretch started from the contents after the first two. The result buffer therefore holds
  the activation of (aggregate + input), the aggregate being the sparse aggregation of the dense layer `x · Wᵀ + b`, all
  of the arguments' launch contents; and no stretch writes an argument's buffer, so the arguments end as they began.
-/
import proofs.«140097_j20547123544256_1_alg».proof.Proof.RefOps
import proofs.«140097_j20547123544256_1_alg».proof.Proof.Layer
import proofs.«140097_j20547123544256_1_alg».proof.Proof.RefLinear
import proofs.«140097_j20547123544256_1_alg».proof.Proof.RefSpmm
import proofs.«140097_j20547123544256_1_alg».proof.Proof.RefTail
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.TcCoe Idealize.SL.Sem Idealize.ShloMosaic.StableHlo
open Idealize.ShloMosaic.ValueIdx

variable {F : FTy → Type} [FloatOps F]

/-! No operation of the reference writes an argument's buffer. -/
theorem ops_arg0 (V : Valuation τ sig (Elt F)) :
    after (ops (F := F)) V (main_arg0 : DevRef τ sig) = V (main_arg0 : DevRef τ sig) := by
  show after (opsLinear ++ (opsSpmm ++ opsTail)) V _ = _
  rw [after_append, after_append, tail_arg0, spmm_arg0, linear_arg0]
theorem ops_arg1 (V : Valuation τ sig (Elt F)) :
    after (ops (F := F)) V (main_arg1 : DevRef τ sig) = V (main_arg1 : DevRef τ sig) := by
  show after (opsLinear ++ (opsSpmm ++ opsTail)) V _ = _
  rw [after_append, after_append, tail_arg1, spmm_arg1, linear_arg1]
theorem ops_arg2 (V : Valuation τ sig (Elt F)) :
    after (ops (F := F)) V (main_arg2 : DevRef τ sig) = V (main_arg2 : DevRef τ sig) := by
  show after (opsLinear ++ (opsSpmm ++ opsTail)) V _ = _
  rw [after_append, after_append, tail_arg2, spmm_arg2, linear_arg2]
theorem ops_arg3 (V : Valuation τ sig (Elt F)) :
    after (ops (F := F)) V (main_arg3 : DevRef τ sig) = V (main_arg3 : DevRef τ sig) := by
  show after (opsLinear ++ (opsSpmm ++ opsTail)) V _ = _
  rw [after_append, after_append, tail_arg3, spmm_arg3, linear_arg3]
theorem ops_arg4 (V : Valuation τ sig (Elt F)) :
    after (ops (F := F)) V (main_arg4 : DevRef τ sig) = V (main_arg4 : DevRef τ sig) := by
  show after (opsLinear ++ (opsSpmm ++ opsTail)) V _ = _
  rw [after_append, after_append, tail_arg4, spmm_arg4, linear_arg4]
theorem ops_arg5 (V : Valuation τ sig (Elt F)) :
    after (ops (F := F)) V (main_arg5 : DevRef τ sig) = V (main_arg5 : DevRef τ sig) := by
  show after (opsLinear ++ (opsSpmm ++ opsTail)) V _ = _
  rw [after_append, after_append, tail_arg5, spmm_arg5, linear_arg5]

/-- The result buffer after the whole line, from any contents: the layer of the arguments' contents. -/
theorem ops_value (V : Valuation τ sig (Elt Ideal)) :
    after (ops (F := Ideal)) V (main_v19 : DevRef τ sig)
      = Cert.Layer.residual
          (Cert.Layer.spmm gather_S100000x128_S1600000x1_S1600000x128_1_0_n_n_0_1_1128 scatter_S100000x128_S1600000x1_S1600000x128_1_0_0_1
            Facts₀.bcast_S_S1600000 Facts₀.bcast_S1600000_S1600000x1_0 Facts₀.bcast_S1600000x1_S1600000x128_0_1 Facts₀.bcast_S_S100000x128
            (Cert.Layer.linear (V (main_arg0 : DevRef τ sig)) (V (main_arg4 : DevRef τ sig)) (V (main_arg5 : DevRef τ sig)))
            (V (main_arg1 : DevRef τ sig)) (V (main_arg2 : DevRef τ sig)) (V (main_arg3 : DevRef τ sig)))
          (V (main_arg0 : DevRef τ sig)) := by
  show after (opsLinear ++ (opsSpmm ++ opsTail)) V _ = _
  rw [after_append, after_append, tail_eq, spmm_eq, spmm_arg0, linear_eq, linear_arg0, linear_arg1, linear_arg2, linear_arg3]

/-- On every device, from any memory with zero counters: every weakly fair execution of the reference terminates with the
    result buffer at the layer of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Cert.Layer.residual (Cert.Layer.spmm gather_S100000x128_S1600000x1_S1600000x128_1_0_n_n_0_1_1128 scatter_S100000x128_S1600000x1_S1600000x128_1_0_0_1 Facts₀.bcast_S_S1600000 Facts₀.bcast_S1600000_S1600000x1_0 Facts₀.bcast_S1600000x1_S1600000x128_0_1 Facts₀.bcast_S_S100000x128 (Cert.Layer.linear (m ((c.tc : Thread nD τ).loc main_arg0)) (m ((c.tc : Thread nD τ).loc main_arg4)) (m ((c.tc : Thread nD τ).loc main_arg5))) (m ((c.tc : Thread nD τ).loc main_arg1)) (m ((c.tc : Thread nD τ).loc main_arg2)) (m ((c.tc : Thread nD τ).loc main_arg3))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v19).trans (ops_value (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c))⟩)
    (run_main m ρ)

end Cert.ReferenceIdeal.RefValue

end
-- ==== Proof.lean ====
/-
  Both programs compute one layer of a graph convolution: a dense layer `h = x · Wᵀ + b`, the sparse aggregation that
  sums, into row `row[e]`, row `col[e]` of `h` scaled by the edge weight `w[e]`, and the activation
  `leaky (agg + x)`. The kernel program runs the dense layer and the activation as two tiled kernels around the
  aggregation's host operations; the reference runs everything on the host.

  On extended reals the two are the same function of the arguments (`Cert.Layer`):
  * the kernel's matrix product of a block of rows with the transposed weight into a zero accumulator, and the host's
    `dot_general` with the transposed weight, are both `∑ k, x[r,k] · W[j,k]`; a change of float format is the identity;
  * the aggregation is the same chain of host operations in both programs, applied to equal arrays;
  * the kernel selects on `0 < v`, the reference on `0 ≤ v`: at `v = 0` both branches are `0`.
  No step uses finiteness of the inputs.

  The kernel program's value is read off its frame run boundary by boundary (`KernelValue`), the reference's off its run
  stage by stage (`RefValue`); the ideal pass rewrote nothing, so `preserves` asks nothing.
-/
import proofs.«140097_j20547123544256_1_alg».proof.Defs
import proofs.«140097_j20547123544256_1_alg».proof.Proof.Gen.Kernel
import proofs.«140097_j20547123544256_1_alg».proof.Proof.Gen.Kernel.Frame
import proofs.«140097_j20547123544256_1_alg».proof.Proof.Gen.KernelIdeal
import proofs.«140097_j20547123544256_1_alg».proof.Proof.Gen.KernelIdeal.Frame
import proofs.«140097_j20547123544256_1_alg».proof.Proof.Gen.ReferenceIdeal
import proofs.«140097_j20547123544256_1_alg».proof.Proof.Gen.Pre_finite_inputs
import proofs.«140097_j20547123544256_1_alg».proof.Proof.KernelValue
import proofs.«140097_j20547123544256_1_alg».proof.Proof.RefValue

noncomputable section

namespace Cert.Proof

open Idealize.ShloMosaic Idealize.SL.Sem

/-- The word-level kernel program terminates, nothing faulting, its arguments unchanged. -/
theorem frame_kernel : Cert.frame_Kernel := fun m ρ _ => Cert.Kernel.Gen.frame m ρ

/-- So does its reading on extended reals. -/
theorem frame_kernel_ideal : Cert.frame_KernelIdeal := fun m ρ _ => Cert.KernelIdeal.Gen.frame m ρ

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories that agree on the arguments both programs end with the layer's value of those arguments. -/
theorem algebraic : Cert.algebraic_KernelIdeal_ReferenceIdeal := by
  intro m ρ m' ρ' _ hagree
  refine ⟨fun c => Cert.KernelIdeal.KernelValue.layerOf m c, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5⟩ := hagree c
  rw [a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
